-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x273x3000 : Shape := ⟨3, ![64, 273, 3000]⟩
abbrev S64x273x2 : Shape := ⟨3, ![64, 273, 2]⟩
abbrev S2 : Shape := ⟨1, ![2]⟩
abbrev S100x2 : Shape := ⟨2, ![100, 2]⟩
abbrev S_ : Shape := ⟨0, ![]⟩

class Facts : Prop where
  bcast_S_S64x273x3000 : S_.BroadcastsInDim S64x273x3000 (![] : Fin 0 → Fin S64x273x3000.rank)
  reducesTo_S64x273x3000_S_d0_1_2 : S64x273x3000.ReducesTo [0, 1, 2] S_
  h_S_ : 0 < S_.numel
  bcast_S_S64x273x2 : S_.BroadcastsInDim S64x273x2 (![] : Fin 0 → Fin S64x273x2.rank)
  reducesTo_S64x273x2_S_d0_1_2 : S64x273x2.ReducesTo [0, 1, 2] S_
  bcast_S_S2 : S_.BroadcastsInDim S2 (![] : Fin 0 → Fin S2.rank)
  reducesTo_S2_S_d0 : S2.ReducesTo [0] S_
  bcast_S_S100x2 : S_.BroadcastsInDim S100x2 (![] : Fin 0 → Fin S100x2.rank)
  reducesTo_S100x2_S_d0_1 : S100x2.ReducesTo [0, 1] S_

variable [Facts]

def fn_part1 {F : FTy → Type} [FloatOps F] (main_v13 : IVec S_ 1) (main_v16 : IVec S100x2 1) : IVec S_ 1 :=
  let main_c_5 : IVec S_ 1 := constantI S_ 1 1#1
  let main_v17 : IVec S_ 1 := (fun x v => Host.reduce IntOp.andi x v reducesTo_S100x2_S_d0_1 h_S_) main_v16 main_c_5
  let main_v18 : IVec S_ 1 := andi main_v13 main_v17
  main_v18

def fn {F : FTy → Type} [FloatOps F] (main_arg0 : FVec F S64x273x3000 .f32) (main_arg1 : FVec F S64x273x2 .f32) (main_arg2 : FVec F S2 .f32) (main_arg3 : FVec F S100x2 .f32) : IVec S_ 1 :=
  let main_v0 : FVec F S64x273x3000 .f32 := Host.absf main_arg0
  let main_cst : FVec F S_ .f32 := constant S_ .f32 0x7F800000#32
  let main_v1 : FVec F S64x273x3000 .f32 := broadcastInDim S64x273x3000 ![] bcast_S_S64x273x3000 main_cst
  let main_v2 : IVec S64x273x3000 1 := cmpf .olt main_v0 main_v1
  let main_c : IVec S_ 1 := constantI S_ 1 1#1
  let main_v3 : IVec S_ 1 := (fun x v => Host.reduce IntOp.andi x v reducesTo_S64x273x3000_S_d0_1_2 h_S_) main_v2 main_c
  let main_v4 : FVec F S64x273x2 .f32 := Host.absf main_arg1
  let main_cst_0 : FVec F S_ .f32 := constant S_ .f32 0x7F800000#32
  let main_v5 : FVec F S64x273x2 .f32 := broadcastInDim S64x273x2 ![] bcast_S_S64x273x2 main_cst_0
  let main_v6 : IVec S64x273x2 1 := cmpf .olt main_v4 main_v5
  let main_c_1 : IVec S_ 1 := constantI S_ 1 1#1
  let main_v7 : IVec S_ 1 := (fun x v => Host.reduce IntOp.andi x v reducesTo_S64x273x2_S_d0_1_2 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S100x2 .f32 := Host.absf main_arg3
  let main_cst_4 : FVec F S_ .f32 := constant S_ .f32 0x7F800000#32
  let main_v15 : FVec F S100x2 .f32 := broadcastInDim S100x2 ![] bcast_S_S100x2 main_cst_4
  let main_v16 : IVec S100x2 1 := cmpf .olt main_v14 main_v15
  fn_part1 (F := F) main_v13 main_v16
-- ==== Kernel.lean ====
abbrev S64x273x3000 : Shape := ⟨3, ![64, 273, 3000]⟩
abbrev S64x273x2 : Shape := ⟨3, ![64, 273, 2]⟩
abbrev S2 : Shape := ⟨1, ![2]⟩
abbrev S100x2 : Shape := ⟨2, ![100, 2]⟩
abbrev S1x1x2 : Shape := ⟨3, ![1, 1, 2]⟩
abbrev S_ : Shape := ⟨0, ![]⟩
abbrev S64x273 : Shape := ⟨2, ![64, 273]⟩
abbrev S1x64x273x2 : Shape := ⟨4, ![1, 64, 273, 2]⟩
abbrev S100x1x1x2 : Shape := ⟨4, ![100, 1, 1, 2]⟩
abbrev S100x64x273x2 : Shape := ⟨4, ![100, 64, 273, 2]⟩
abbrev S100x64x273 : Shape := ⟨3, ![100, 64, 273]⟩
abbrev S17472x3000 : Shape := ⟨2, ![17472, 3000]⟩
abbrev S17472x1 : Shape := ⟨2, ![17472, 1]⟩
abbrev S832x3000 : Shape := ⟨2, ![832, 3000]⟩
abbrev S832x1 : Shape := ⟨2, ![832, 1]⟩

abbrev nBuf : Space → Nat
  | .hbm => 41
  | .vmem => 5
  | .smem => 0
  | _ => 0

abbrev bufTy : (tb : Table) → Fin (tcTables nBuf tb) → BufTy
  | .hbm, ⟨0, _⟩ => ⟨S64x273x3000, .f32⟩
  | .hbm, ⟨1, _⟩ => ⟨S64x273x2, .f32⟩
  | .hbm, ⟨2, _⟩ => ⟨S2, .f32⟩
  | .hbm, ⟨3, _⟩ => ⟨S100x2, .f32⟩
  | .hbm, ⟨4, _⟩ => ⟨S1x1x2, .f32⟩
  | .hbm, ⟨5, _⟩ => ⟨S64x273x2, .f32⟩
  | .hbm, ⟨6, _⟩ => ⟨S64x273x2, .f32⟩
  | .hbm, ⟨7, _⟩ => ⟨S64x273x2, .f32⟩
  | .hbm, ⟨8, _⟩ => ⟨S_, .f32⟩
  | .hbm, ⟨9, _⟩ => ⟨S64x273, .f32⟩
  | .hbm, ⟨10, _⟩ => ⟨S64x273, .f32⟩
  | .hbm, ⟨11, _⟩ => ⟨S_, .f32⟩
  | .hbm, ⟨12, _⟩ => ⟨S64x273, .f32⟩
  | .hbm, ⟨13, _⟩ => ⟨S64x273, .i1⟩
  | .hbm, ⟨14, _⟩ => ⟨S1x64x273x2, .f32⟩
  | .hbm, ⟨15, _⟩ => ⟨S100x1x1x2, .f32⟩
  | .hbm, ⟨16, _⟩ => ⟨S100x64x273x2, .f32⟩
  | .hbm, ⟨17, _⟩ => ⟨S100x64x273x2, .f32⟩
  | .hbm, ⟨18, _⟩ => ⟨S100x64x273x2, .f32⟩
  | .hbm, ⟨19, _⟩ => ⟨S100x64x273x2, .f32⟩
  | .hbm, ⟨20, _⟩ => ⟨S_, .f32⟩
  | .hbm, ⟨21, _⟩ => ⟨S100x64x273, .f32⟩
  | .hbm, ⟨22, _⟩ => ⟨S100x64x273, .f32⟩
  | .hbm, ⟨23, _⟩ => ⟨S_, .f32⟩
  | .hbm, ⟨24, _⟩ => ⟨S100x64x273, .f32⟩
  | .hbm, ⟨25, _⟩ => ⟨S100x64x273, .i1⟩
  | .hbm, ⟨26, _⟩ => ⟨S100x64x273, .f32⟩
  | .hbm, ⟨27, _⟩ => ⟨S_, .f32⟩
  | .hbm, ⟨28, _⟩ => ⟨S64x273, .f32⟩
  | .hbm, ⟨29, _⟩ => ⟨S_, .f32⟩
  | .hbm, ⟨30, _⟩ => ⟨S64x273, .f32⟩
  | .hbm, ⟨31, _⟩ => ⟨S64x273, .f32⟩
  | .hbm, ⟨32, _⟩ => ⟨S64x273, .f32⟩
  | .hbm, ⟨33, _⟩ => ⟨S_, .f32⟩
  | .hbm, ⟨34, _⟩ => ⟨S64x273, .f32⟩
  | .hbm, ⟨35, _⟩ => ⟨S64x273, .f32⟩
  | .hbm, ⟨36, _⟩ => ⟨S64x273, .f32⟩
  | .hbm, ⟨37, _⟩ => ⟨S17472x3000, .f32⟩
  | .hbm, ⟨38, _⟩ => ⟨S17472x1, .f32⟩
  | .hbm, ⟨39, _⟩ => ⟨S17472x3000, .f32⟩
  | .hbm, ⟨40, _⟩ => ⟨S64x273x3000, .f32⟩
  | .local _ .vmem, ⟨0, _⟩ => ⟨S832x3000, .f32⟩
  | .local _ .vmem, ⟨1, _⟩ => ⟨S832x3000, .f32⟩
  | .local _ .vmem, ⟨2, _⟩ => ⟨S17472x1, .f32⟩
  | .local _ .vmem, ⟨3, _⟩ => ⟨S832x3000, .f32⟩
  | .local _ .vmem, ⟨4, _⟩ => ⟨S832x3000, .f32⟩
  | _, _ => ⟨S64x273x3000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![21], ![false]⟩

def k0_mult1 (i : grid0.Coords) : BitVec 32 :=
  let arg0 : BitVec 32 := BitVec.ofNat 32 (i 0).val
  let c832_i32 : BitVec 32 := 832#32
  let v0 : BitVec 32 := Scalar.muli arg0 c832_i32
  v0
def k0_off1 (i : grid0.Coords) : Fin 2 → Nat :=
  let arg0 : BitVec 32 := BitVec.ofNat 32 (i 0).val
  let c832_i32 : BitVec 32 := 832#32
  let v0 : BitVec 32 := Scalar.muli arg0 c832_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x3000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S17472x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S832x3000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S2_S1x1x2_2 : S2.BroadcastsInDim S1x1x2 (![2] : Fin 1 → Fin S1x1x2.rank)
  bcast_S1x1x2_S64x273x2_0_1_2 : S1x1x2.BroadcastsInDim S64x273x2 (![0, 1, 2] : Fin 3 → Fin S64x273x2.rank)
  reducesTo_S64x273x2_S64x273_d2 : S64x273x2.ReducesTo [2] S64x273
  h_S_ : 0 < S_.numel
  bcast_S_S64x273 : S_.BroadcastsInDim S64x273 (![] : Fin 0 → Fin S64x273.rank)
  bcast_S64x273x2_S1x64x273x2_1_2_3 : S64x273x2.BroadcastsInDim S1x64x273x2 (![1, 2, 3] : Fin 3 → Fin S1x64x273x2.rank)
  bcast_S100x2_S100x1x1x2_0_3 : S100x2.BroadcastsInDim S100x1x1x2 (![0, 3] : Fin 2 → Fin S100x1x1x2.rank)
  bcast_S1x64x273x2_S100x64x273x2_0_1_2_3 : S1x64x273x2.BroadcastsInDim S100x64x273x2 (![0, 1, 2, 3] : Fin 4 → Fin S100x64x273x2.rank)
  bcast_S100x1x1x2_S100x64x273x2_0_1_2_3 : S100x1x1x2.BroadcastsInDim S100x64x273x2 (![0, 1, 2, 3] : Fin 4 → Fin S100x64x273x2.rank)
  reducesTo_S100x64x273x2_S100x64x273_d3 : S100x64x273x2.ReducesTo [3] S100x64x273
  bcast_S_S100x64x273 : S_.BroadcastsInDim S100x64x273 (![] : Fin 0 → Fin S100x64x273.rank)
  reducesTo_S100x64x273_S64x273_d0 : S100x64x273.ReducesTo [0] S64x273
  shapeCasts_S64x273x3000_S17472x3000 : S64x273x3000.ShapeCasts S17472x3000
  shapeCasts_S64x273_S17472x1 : S64x273.ShapeCasts S17472x1
  h_S832x1 : 0 < S832x1.numel
  shapeCasts_S832x1_S832x1 : S832x1.ShapeCasts S832x1
  inb_S832x3000_S832x3000_0_0 : ∀ a, (![0, 0] : Fin 2 → Nat) a + S832x3000.size a ≤ S832x3000.size a
  h_S832x3000 : 0 < S832x3000.numel
  shapeCasts_S832x3000_S832x3000 : S832x3000.ShapeCasts S832x3000
  broadcasts_S832x1_S832x3000 : S832x1.Broadcasts S832x3000
  shapeCasts_S17472x3000_S64x273x3000 : S17472x3000.ShapeCasts S64x273x3000
  hrank0 : 0 < grid0.rank
  k0_mult1_dvd : ∀ i : grid0.Coords, 832 ∣ (k0_mult1 i).toNat
  k0_off1_inb : ∀ i : grid0.Coords, ∀ a, (k0_off1 i) a + S832x1.size a ≤ S17472x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S832x3000.size a ≤ S17472x3000.size a
  hwx0_0 : ∀ i : grid0.Coords, EltTy.bits .f32 = 32 ∨ (Rect.block (s := S17472x3000) S832x3000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S17472x1.size a ≤ S17472x1.size a
  hwx0_1 : ∀ i : grid0.Coords, EltTy.bits .f32 = 32 ∨ (Rect.block (s := S17472x1) S17472x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S832x3000.size a ≤ S17472x3000.size a
  hwx0_2 : ∀ i : grid0.Coords, EltTy.bits .f32 = 32 ∨ (Rect.block (s := S17472x3000) S832x3000.size (cc0_transform_2 i) (hinb0_2 i)).WholeWords (EltTy.packing .f32)

variable [Facts₀]

abbrev win0_0 : Pipeline.Window sig grid0 :=
  Pipeline.Window.ofSpec (Memref.whole main_v22) S832x3000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S17472x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S832x3000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x273x3000 : Shape := ⟨3, ![64, 273, 3000]⟩
abbrev S64x273x2 : Shape := ⟨3, ![64, 273, 2]⟩
abbrev S2 : Shape := ⟨1, ![2]⟩
abbrev S100x2 : Shape := ⟨2, ![100, 2]⟩
abbrev S1x1x2 : Shape := ⟨3, ![1, 1, 2]⟩
abbrev S_ : Shape := ⟨0, ![]⟩
abbrev S64x273 : Shape := ⟨2, ![64, 273]⟩
abbrev S64x273x1 : Shape := ⟨3, ![64, 273, 1]⟩
abbrev S1x64x273x2 : Shape := ⟨4, ![1, 64, 273, 2]⟩
abbrev S100x1x1x2 : Shape := ⟨4, ![100, 1, 1, 2]⟩
abbrev S100x64x273x2 : Shape := ⟨4, ![100, 64, 273, 2]⟩
abbrev S100x64x273 : Shape := ⟨3, ![100, 64, 273]⟩

abbrev nBuf : Space → Nat
  | .hbm => 42
  | .vmem => 0
  | .smem => 0
  | _ => 0

abbrev bufTy : (tb : Table) → Fin (tcTables nBuf tb) → BufTy
  | .hbm, ⟨0, _⟩ => ⟨S64x273x3000, .f32⟩
  | .hbm, ⟨1, _⟩ => ⟨S64x273x2, .f32⟩
  | .hbm, ⟨2, _⟩ => ⟨S2, .f32⟩
  | .hbm, ⟨3, _⟩ => ⟨S100x2, .f32⟩
  | .hbm, ⟨4, _⟩ => ⟨S1x1x2, .f32⟩
  | .hbm, ⟨5, _⟩ => ⟨S64x273x2, .f32⟩
  | .hbm, ⟨6, _⟩ => ⟨S64x273x2, .f32⟩
  | .hbm, ⟨7, _⟩ => ⟨S64x273x2, .f32⟩
  | .hbm, ⟨8, _⟩ => ⟨S_, .f32⟩
  | .hbm, ⟨9, _⟩ => ⟨S64x273, .f32⟩
  | .hbm, ⟨10, _⟩ => ⟨S64x273, .f32⟩
  | .hbm, ⟨11, _⟩ => ⟨S_, .f32⟩
  | .hbm, ⟨12, _⟩ => ⟨S64x273, .f32⟩
  | .hbm, ⟨13, _⟩ => ⟨S64x273, .i1⟩
  | .hbm, ⟨14, _⟩ => ⟨S64x273x1, .i1⟩
  | .hbm, ⟨15, _⟩ => ⟨S64x273x1, .f32⟩
  | .hbm, ⟨16, _⟩ => ⟨S64x273x3000, .f32⟩
  | .hbm, ⟨17, _⟩ => ⟨S64x273x3000, .f32⟩
  | .hbm, ⟨18, _⟩ => ⟨S1x64x273x2, .f32⟩
  | .hbm, ⟨19, _⟩ => ⟨S100x1x1x2, .f32⟩
  | .hbm, ⟨20, _⟩ => ⟨S100x64x273x2, .f32⟩
  | .hbm, ⟨21, _⟩ => ⟨S100x64x273x2, .f32⟩
  | .hbm, ⟨22, _⟩ => ⟨S100x64x273x2, .f32⟩
  | .hbm, ⟨23, _⟩ => ⟨S100x64x273x2, .f32⟩
  | .hbm, ⟨24, _⟩ => ⟨S_, .f32⟩
  | .hbm, ⟨25, _⟩ => ⟨S100x64x273, .f32⟩
  | .hbm, ⟨26, _⟩ => ⟨S100x64x273, .f32⟩
  | .hbm, ⟨27, _⟩ => ⟨S_, .f32⟩
  | .hbm, ⟨28, _⟩ => ⟨S100x64x273, .f32⟩
  | .hbm, ⟨29, _⟩ => ⟨S100x64x273, .i1⟩
  | .hbm, ⟨30, _⟩ => ⟨S100x64x273, .f32⟩
  | .hbm, ⟨31, _⟩ => ⟨S_, .f32⟩
  | .hbm, ⟨32, _⟩ => ⟨S64x273, .f32⟩
  | .hbm, ⟨33, _⟩ => ⟨S_, .f32⟩
  | .hbm, ⟨34, _⟩ => ⟨S64x273, .f32⟩
  | .hbm, ⟨35, _⟩ => ⟨S64x273, .f32⟩
  | .hbm, ⟨36, _⟩ => ⟨S64x273x1, .f32⟩
  | .hbm, ⟨37, _⟩ => ⟨S_, .f32⟩
  | .hbm, ⟨38, _⟩ => ⟨S64x273x1, .f32⟩
  | .hbm, ⟨39, _⟩ => ⟨S64x273x1, .f32⟩
  | .hbm, ⟨40, _⟩ => ⟨S64x273x3000, .f32⟩
  | .hbm, ⟨41, _⟩ => ⟨S64x273x3000, .f32⟩
  | _, _ => ⟨S64x273x3000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]

class Facts₀ : Prop where
  bcast_S2_S1x1x2_2 : S2.BroadcastsInDim S1x1x2 (![2] : Fin 1 → Fin S1x1x2.rank)
  bcast_S1x1x2_S64x273x2_0_1_2 : S1x1x2.BroadcastsInDim S64x273x2 (![0, 1, 2] : Fin 3 → Fin S64x273x2.rank)
  reducesTo_S64x273x2_S64x273_d2 : S64x273x2.ReducesTo [2] S64x273
  h_S_ : 0 < S_.numel
  bcast_S_S64x273 : S_.BroadcastsInDim S64x273 (![] : Fin 0 → Fin S64x273.rank)
  bcast_S64x273_S64x273x1_0_1 : S64x273.BroadcastsInDim S64x273x1 (![0, 1] : Fin 2 → Fin S64x273x1.rank)
  bcast_S64x273x1_S64x273x3000_0_1_2 : S64x273x1.BroadcastsInDim S64x273x3000 (![0, 1, 2] : Fin 3 → Fin S64x273x3000.rank)
  bcast_S64x273x2_S1x64x273x2_1_2_3 : S64x273x2.BroadcastsInDim S1x64x273x2 (![1, 2, 3] : Fin 3 → Fin S1x64x273x2.rank)
  bcast_S100x2_S100x1x1x2_0_3 : S100x2.BroadcastsInDim S100x1x1x2 (![0, 3] : Fin 2 → Fin S100x1x1x2.rank)
  bcast_S1x64x273x2_S100x64x273x2_0_1_2_3 : S1x64x273x2.BroadcastsInDim S100x64x273x2 (![0, 1, 2, 3] : Fin 4 → Fin S100x64x273x2.rank)
  bcast_S100x1x1x2_S100x64x273x2_0_1_2_3 : S100x1x1x2.BroadcastsInDim S100x64x273x2 (![0, 1, 2, 3] : Fin 4 → Fin S100x64x273x2.rank)
  reducesTo_S100x64x273x2_S100x64x273_d3 : S100x64x273x2.ReducesTo [3] S100x64x273
  bcast_S_S100x64x273 : S_.BroadcastsInDim S100x64x273 (![] : Fin 0 → Fin S100x64x273.rank)
  reducesTo_S100x64x273_S64x273_d0 : S100x64x273.ReducesTo [0] S64x273
  bcast_S_S64x273x1 : S_.BroadcastsInDim S64x273x1 (![] : Fin 0 → Fin S64x273x1.rank)

variable [Facts₀]

class Facts : Prop extends Facts₀ where

variable [Facts]
-- ==== Proof.ScaleLaw.lean ====
/-
  The one algebraic law that joins the two programs, and the sign facts it rests on.

  The kernel rescales each sample by a per-channel factor computed first:  x · (k / d).
  The reference masks first and divides afterwards:                        (x · k) / d.
  Here k is a 0/1 mask value and d = ε + p, with ε a positive constant and p a mean of 0/1
  values.  On the extended reals a quotient by a NONZERO divisor is the product with the
  inverse, so the two arrangements differ only by associativity of the product.  By a zero
  divisor they do differ (x = 0, k = 1 gives 0 on one side and the bottom element on the other),
  so the proof owes d ≠ 0: that is positivity of ε plus a sum of nonnegative terms.
-/
import Idealize.ShloMosaic.PureOps.Ideal
import Idealize.ShloMosaic.PureOps.Ideal.Laws

noncomputable section

namespace Cert.ChannelScale

open Idealize.ShloMosaic

/-- Rescaling by a quotient is the quotient of the rescaled value, when the divisor is not zero:
    both sides are `x · k · d⁻¹`. No finiteness is needed: the product of extended reals is
    associative at the infinities too. -/
theorem mul_div_eq_div_mul (x k d : EReal) (hd : d ≠ 0) :
    x * Ideal.div k d = Ideal.div (x * k) d := by
  unfold Ideal.div
  rw [if_neg hd, if_neg hd, mul_assoc]

/-- A quotient of a nonnegative extended real by a positive REAL is nonnegative. -/
theorem div_coe_nonneg {s : EReal} (hs : 0 ≤ s) {r : ℝ} (hr : 0 < r) : 0 ≤ Ideal.div s (r : EReal) := by
  rw [Ideal.div_coe (ne_of_gt hr)]
  refine mul_nonneg hs ?_
  exact_mod_cast (one_div_pos.mpr hr).le

/-- A positive constant plus a nonnegative term is not zero. -/
theorem add_ne_zero_of_pos_of_nonneg {e p : EReal} (he : 0 < e) (hp : 0 ≤ p) : e + p ≠ 0 :=
  ne_of_gt (add_pos_of_pos_of_nonneg he hp)

/-! ## The literals the two programs spell, and the divisor they build from them -/

/-- The word both programs print for 100.0 denotes the real 100. -/
theorem ofBits_hundred : Ideal.ofBits .f32 0x42C80000#32 = ((100 : ℝ) : EReal) := by
  simp [Ideal.ofBits, Ideal.ieee, -EReal.coe_mul]; norm_num

/-- The word both programs print for ε (the float nearest 1e-8) denotes a positive real. -/
theorem ofBits_eps_pos : 0 < Ideal.ofBits .f32 0x322BCC77#32 := by
  simp [Ideal.ofBits, Ideal.ieee, -EReal.coe_mul]

/-- An unsigned integer read as a float is not negative. -/
theorem uitofp_nonneg {w : Nat} (b : BitVec w) : (0 : EReal) ≤ ((b.toNat : ℝ) : EReal) :=
  EReal.coe_nonneg.mpr (Nat.cast_nonneg _)

/-- The divisor of both programs: ε plus the mean (a sum from zero of a hundred nonnegative terms, over 100).
    It is positive, so it is not zero. -/
theorem eps_add_mean_ne_zero (u : Fin 100 → EReal) (hu : ∀ k, 0 ≤ u k) :
    Ideal.ofBits .f32 0x322BCC77#32
      + Ideal.div (Ideal.ofBits .f32 0x00000000#32 + ∑ k : Fin 100, u k) (Ideal.ofBits .f32 0x42C80000#32) ≠ 0 := by
  rw [ofBits_hundred, Ideal.ofBits_zero_f32, zero_add]
  exact add_ne_zero_of_pos_of_nonneg ofBits_eps_pos
    (div_coe_nonneg (Finset.sum_nonneg fun k _ => hu k) (by norm_num))

end Cert.ChannelScale

end
-- ==== Proof.ChannelSpec.lean ====
/-
  The result both programs compute, as one function of the four arguments, and that the reference computes it.

      scaled x pos ctr mc (b, ch, l) = x (b, ch, l) · ( k (b, ch) / (ε + p (b, ch)) )

  with k the 0/1 value of the mask "the channel's distance from the centre exceeds the radius" and p the mean over
  the hundred trial centres of the same mask. The mask bits and the mean are the same host terms in both programs,
  so they stay closed here: only the last steps differ. The reference multiplies the signal by k and divides the
  product by ε + p; that is `scaled` by the law of the first module, since ε + p is never zero.
-/
import proofs.«118088_j5626407158062_2_alg».proof.Proof.Gen.ReferenceIdeal.Read
import proofs.«118088_j5626407158062_2_alg».proof.Proof.ScaleLaw
import Idealize.ShloMosaic.Lib.ValueIdx

noncomputable section

open Idealize.ShloMosaic Idealize.ShloMosaic.ValueIdx

namespace Cert.ChannelScale

open Cert.ReferenceIdeal Cert.ReferenceIdeal.Gen Cert.ReferenceIdeal.Read

/-- The per-channel factor: the mask's 0/1 value over ε plus the mean of the hundred trial masks. -/
def channelScale (pos : (⟨S64x273x2, .f32⟩ : BufTy).Contents (Elt Ideal)) (ctr : (⟨S2, .f32⟩ : BufTy).Contents (Elt Ideal))
    (mc : (⟨S100x2, .f32⟩ : BufTy).Contents (Elt Ideal)) : (⟨S64x273, .f32⟩ : BufTy).Contents (Elt Ideal) :=
  Host.divf (F := Ideal)
    (uitofp (F := Ideal) .f32 (val_main_v5 (F := Ideal) pos ctr))
    (addf (F := Ideal) (broadcastInDim S64x273 ![] bcast_S_S64x273 (constant (F := Ideal) S_ .f32 0x322BCC77#32))
      (val_main_v21 (F := Ideal) pos mc))

/-- The result: each sample times its channel's factor. -/
def scaled (x : (⟨S64x273x3000, .f32⟩ : BufTy).Contents (Elt Ideal)) (pos : (⟨S64x273x2, .f32⟩ : BufTy).Contents (Elt Ideal))
    (ctr : (⟨S2, .f32⟩ : BufTy).Contents (Elt Ideal)) (mc : (⟨S100x2, .f32⟩ : BufTy).Contents (Elt Ideal)) :
    (⟨S64x273x3000, .f32⟩ : BufTy).Contents (Elt Ideal) :=
  fun i => x i * channelScale pos ctr mc (ix2 (⟨(i 0).val, (i 0).isLt⟩ : Fin 64) (⟨(i 1).val, (i 1).isLt⟩ : Fin 273))

/-- ε plus the mean is not zero, at every channel: the mean is a sum from zero of a hundred 0/1 values over 100. -/
theorem divisor_ne_zero (pos : (⟨S64x273x2, .f32⟩ : BufTy).Contents (Elt Ideal)) (mc : (⟨S100x2, .f32⟩ : BufTy).Contents (Elt Ideal))
    (j : S64x273.Idx) : Ideal.ofBits .f32 0x322BCC77#32 + val_main_v21 (F := Ideal) pos mc j ≠ 0 := by
  rw [val_main_v21_apply, val_main_v19_apply, val_main_v20_apply, val_main_cst_2_apply, val_main_cst_1_apply]
  simp only [Ideal.hostDivf_def, Ideal.ofBits_def]
  refine eps_add_mean_ne_zero (fun k => val_main_v18 (F := Ideal) pos mc (idx_main_v19 j k)) (fun k => ?_)
  rw [val_main_v18_apply]
  exact uitofp_nonneg _

/-- The reference's result is `scaled`: index by index it is (x · k) / (ε + p), the broadcasts along the lanes read
    back at the channel. -/
theorem reference_eq (x : (⟨S64x273x3000, .f32⟩ : BufTy).Contents (Elt Ideal)) (pos : (⟨S64x273x2, .f32⟩ : BufTy).Contents (Elt Ideal))
    (ctr : (⟨S2, .f32⟩ : BufTy).Contents (Elt Ideal)) (mc : (⟨S100x2, .f32⟩ : BufTy).Contents (Elt Ideal)) :
    val_main_v26 (F := Ideal) x pos ctr mc = scaled x pos ctr mc := by
  funext i
  have e1 : idx_main_v6 (idx_main_v8 i) = ix2 (⟨(i 0).val, (i 0).isLt⟩ : Fin 64) (⟨(i 1).val, (i 1).isLt⟩ : Fin 273) :=
    funext fun a => match a with | ⟨0, _⟩ => rfl | ⟨1, _⟩ => rfl
  have e2 : idx_main_v22 (idx_main_v25 i) = ix2 (⟨(i 0).val, (i 0).isLt⟩ : Fin 64) (⟨(i 1).val, (i 1).isLt⟩ : Fin 273) :=
    funext fun a => match a with | ⟨0, _⟩ => rfl | ⟨1, _⟩ => rfl
  rw [val_main_v26_apply, val_main_v9_apply, val_main_v8_apply, val_main_v7_apply, val_main_v6_apply,
    val_main_v25_apply, val_main_v24_apply, val_main_v23_apply, val_main_v22_apply, val_main_cst_3_apply, e1, e2]
  simp only [Ideal.hostDivf_def, Ideal.mulf_def, Ideal.addf_def, Ideal.ofBits_def]
  show _ = x i * Ideal.div
      (FloatOps.uitofp (F := Ideal) .f32 (val_main_v5 (F := Ideal) pos ctr (ix2 (⟨(i 0).val, (i 0).isLt⟩ : Fin 64) (⟨(i 1).val, (i 1).isLt⟩ : Fin 273))))
      (Ideal.ofBits .f32 0x322BCC77#32 + val_main_v21 (F := Ideal) pos mc (ix2 (⟨(i 0).val, (i 0).isLt⟩ : Fin 64) (⟨(i 1).val, (i 1).isLt⟩ : Fin 273)))
  exact (mul_div_eq_div_mul _ _ _ (divisor_ne_zero pos mc _)).symm

end Cert.ChannelScale

end
-- ==== Proof.KernelBlocks.lean ====
/-
  The region of the kernel, as a function of the two arrays it stages.

  The grid has 21 points. Point t is handed rows 832·t … 832·t+831 of the signal matrix [17472, 3000] and the
  whole one-column scale array [17472, 1]; its body loads rows 832·t … 832·t+831 of that column, broadcasts each
  row's scale along the 3000 lanes, multiplies, and stores the whole block. So what point t writes back is block t
  of the one function

      rowScale X S (r, l) = X (r, l) · S (r, 0),

  and since the 21 row blocks tile the 17472 rows (row r lies in block r / 832), the output array after the last
  point is `rowScale` of the two staged arrays at every index.
-/
import proofs.«118088_j5626407158062_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)
open Idealize.ShloMosaic.ValueIdx

namespace Cert.KernelIdeal.Scale

open Cert.KernelIdeal Cert.KernelIdeal.Gen

/-- The zero offsets of a whole-block load or store. -/
theorem hz : (![0, 0] : Fin 2 → Nat) = fun _ => 0 := funext fun a => by fin_cases a <;> rfl

section AnyValues
variable {F : FTy → Type} [FloatOps F]

/-- What the body leaves in the output block, for any values: its one whole-block store's payload, of the signal block
    and of the rows of the scale column it loads at the point's row offset. -/
theorem out_eq (c : Dev nD) (i : grid0.Coords) (a1 : Memref sig .tc .vmem S832x3000 .f32) (h1 : a1.IsWhole)
    (a2 : Memref sig .tc .vmem S17472x1 .f32) (h2 : a2.IsWhole) (a3 : Memref sig .tc .vmem S832x3000 .f32) (h3 : a3.IsWhole)
    (x0 : Vec F S832x3000 .f32) (x1 : Vec F S17472x1 .f32) :
    out0_A_2 c i a1 h1 a2 h2 a3 h3 x0 x1
      = k0_pay1 (View.ld x1 (Rect.unit (s := S17472x1) (k0_off1 i) S832x1.size (k0_off1_inb i))) x0 := by
  unfold out0_A_2
  rw [View.read_writes_eq_canon _ _ _ (cover0_A_2 c i a1 h1 a2 h2 a3 h3 x0 x1)]
  unfold kernelRun0_A
  dsimp only
  rw [View.canon_unit_zero hz]
  simp only [View.readAt_eq_ld, h1.read_unread, h2.read_unread, View.ld_unit_zero (S := S832x3000) hz]

end AnyValues

/-- The payload at row p, lane q: the signal there times the scale of row p (the column broadcast along the lanes). -/
theorem pay_apply (v3 : Vec Ideal S832x1 .f32) (v5 : Vec Ideal S832x3000 .f32) (p : Fin 832) (q : Fin 3000) :
    k0_pay1 v3 v5 (ix2 p q) = v5 (ix2 p q) * v3 (ix2 p (0 : Fin 1)) := by
  unfold k0_pay1
  rw [mulf_apply, shapeCast_self, shapeCast_self]
  rw [broadcastTo_apply v3 broadcasts_S832x1_S832x3000 (ix2 p q) (ix2 p (0 : Fin 1)) (fun a => match a with
    | ⟨0, _⟩ => by show p.val = if (832 : Nat) = 1 then 0 else p.val; rw [if_neg (by decide)]
    | ⟨1, _⟩ => by show (0 : Nat) = if (1 : Nat) = 1 then 0 else q.val; rw [if_pos rfl])]

/-- The same at an index given whole. -/
theorem pay_apply_idx (v3 : Vec Ideal S832x1 .f32) (v5 : Vec Ideal S832x3000 .f32) (j : S832x3000.Idx) :
    k0_pay1 v3 v5 j = v5 j * v3 (ix2 (⟨(j 0).val, (j 0).isLt⟩ : Fin 832) (0 : Fin 1)) := by
  have h := pay_apply v3 v5 (⟨(j 0).val, (j 0).isLt⟩ : Fin 832) (⟨(j 1).val, (j 1).isLt⟩ : Fin 3000)
  have e : (ix2 (⟨(j 0).val, (j 0).isLt⟩ : Fin 832) (⟨(j 1).val, (j 1).isLt⟩ : Fin 3000) : S832x3000.Idx) = j :=
    funext fun a => match a with | ⟨0, _⟩ => rfl | ⟨1, _⟩ => rfl
  rw [e] at h
  exact h

/-- The region's result as one function of the two arrays it stages: row r, lane l of the signal times
    row r of the one-column scale array. -/
def rowScale (X : (⟨S17472x3000, .f32⟩ : BufTy).Contents (Elt Ideal)) (S : (⟨S17472x1, .f32⟩ : BufTy).Contents (Elt Ideal)) :
    (⟨S17472x3000, .f32⟩ : BufTy).Contents (Elt Ideal) :=
  fun j => X j * S (ix2 (⟨(j 0).val, (j 0).isLt⟩ : Fin 17472) (0 : Fin 1))

variable (m : (ℓ : Loc nD τ sig) → Buf (Elt Ideal) ℓ) (ρ : Dev nD → PrngReg)

/-- Decided over the 21 points: the signal and output windows sit at row block t, the scale window never moves,
    and the body's row offset into the scale column is 832·t. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ k0_off1 (grid0.coords t) (0 : Fin 2) = 832 * t.val ∧ k0_off1 (grid0.coords t) (1 : Fin 2) = 0 :=
  (by decide +kernel : ∀ t : Fin grid0.N, _)

/-- At grid point t the body multiplies the signal block (rows 832·t … 832·t+831) by the rows of the scale
    column it loads at offset 832·t: that is block t of `rowScale`. -/
theorem block_value (X : (⟨S17472x3000, .f32⟩ : BufTy).Contents (Elt Ideal)) (S : (⟨S17472x1, .f32⟩ : BufTy).Contents (Elt Ideal))
    (t : Fin cfg0.N) (j : S832x3000.Idx) :
    k0_pay1 (View.ld (((cfg0.win 1).blk t).view.read (Elt Ideal) S)
        (Rect.unit (s := S17472x1) (k0_off1 (grid0.coords t)) S832x1.size (k0_off1_inb (grid0.coords t))))
      (((cfg0.win 0).blk t).view.read (Elt Ideal) X) j
    = ((cfg0.win 2).blk t).view.read (Elt Ideal) (rowScale X S) j := by
  obtain ⟨e0, e1, e2, e3, e4, e5, e6, e7⟩ := idx_facts t
  refine (pay_apply_idx _ _ j).trans ?_
  show X (((cfg0.win 0).blk t).view.emb j)
      * S (((cfg0.win 1).blk t).view.emb
          ((Rect.unit (s := S17472x1) (k0_off1 (grid0.coords t)) S832x1.size (k0_off1_inb (grid0.coords t))).idx
            (ix2 (⟨(j 0).val, (j 0).isLt⟩ : Fin 832) (0 : Fin 1))))
    = X (((cfg0.win 2).blk t).view.emb j)
      * S (ix2 (⟨((((cfg0.win 2).blk t).view.emb j) 0).val, ((((cfg0.win 2).blk t).view.emb j) 0).isLt⟩ : Fin 17472) (0 : Fin 1))
  have hj0 : (j 0).val < 832 := (j 0).isLt
  have hj1 : (j 1).val < 3000 := (j 1).isLt
  have hs : ((cfg0.win 0).blk t).view.emb j = ((cfg0.win 2).blk t).view.emb j := by
    funext a; apply Fin.ext
    match a with
    | ⟨0, _⟩ => show win0_0.index t (0 : Fin 2) * 832 + 1 * (j 0).val = win0_2.index t (0 : Fin 2) * 832 + 1 * (j 0).val; omega
    | ⟨1, _⟩ => show win0_0.index t (1 : Fin 2) * 3000 + 1 * (j 1).val = win0_2.index t (1 : Fin 2) * 3000 + 1 * (j 1).val; omega
  have hc : ((cfg0.win 1).blk t).view.emb
          ((Rect.unit (s := S17472x1) (k0_off1 (grid0.coords t)) S832x1.size (k0_off1_inb (grid0.coords t))).idx
            (ix2 (⟨(j 0).val, (j 0).isLt⟩ : Fin 832) (0 : Fin 1)))
      = ix2 (⟨((((cfg0.win 2).blk t).view.emb j) 0).val, ((((cfg0.win 2).blk t).view.emb j) 0).isLt⟩ : Fin 17472) (0 : Fin 1) := by
    funext a; apply Fin.ext
    match a with
    | ⟨0, _⟩ => show win0_1.index t (0 : Fin 2) * 17472 + 1 * (k0_off1 (grid0.coords t) (0 : Fin 2) + 1 * (j 0).val) = win0_2.index t (0 : Fin 2) * 832 + 1 * (j 0).val; omega
    | ⟨1, _⟩ => show win0_1.index t (1 : Fin 2) * 1 + 1 * (k0_off1 (grid0.coords t) (1 : Fin 2) + 1 * 0) = 0; omega
  rw [hs, hc]

/-- What point t writes back is block t of `rowScale` of the two arrays the region stages. -/
theorem flushed_eq (c : Dev nD) (t : Fin cfg0.N) :
    (dats m 0 c).flushed 2 t = ((cfg0.win 2).blk t).view.read (Elt Ideal) (rowScale (V m c main_v22) (V m c main_v23)) := by
  show (cfg0.win 2).cut (grid0.coords t) ((dats m 0 c).after 2 t) = _
  rw [after0_2]
  unfold outsAt0
  rw [out_eq]
  funext j
  exact block_value (V m c main_v22) (V m c main_v23) t j

/-- An index of the output array is in point t's block iff each coordinate is in the block's range. -/
theorem mem_blk (t : Fin cfg0.N) (i : S17472x3000.Idx) :
    i ∈ ((cfg0.win 2).blk t).view.set ↔ ∀ a : Fin 2, win0_2.index t a * S832x3000.size a ≤ (i a).val
      ∧ (i a).val < win0_2.index t a * S832x3000.size a + S832x3000.size a := by
  show i ∈ ((View.whole main_v24).slice (win0_2.rect t)).set ↔ _
  rw [View.set_slice_whole, Rect.mem_set_unit]
  exact Iff.rfl

/-- The 21 row blocks tile the 17472 rows (row r is in block r / 832), so after the region the output array is
    `rowScale` of the two staged arrays, everywhere. -/
theorem region_result (c : Dev nD) : (dats m 0 c).arrAt 2 cfg0.N = rowScale (V m c main_v22) (V m c main_v23) :=
  (dats m 0 c).arrAt_eq_of_cover 2 _ (fun t _ => flushed_eq m c t) (fun i => by
    have hi0 : (i 0).val < 17472 := (i 0).isLt
    have hi1 : (i 1).val < 3000 := (i 1).isLt
    have hN : cfg0.N = 21 := N_0
    have hlt : (i 0).val / 832 < cfg0.N := by omega
    refine ⟨⟨(i 0).val / 832, hlt⟩, flush0_2 _, ?_⟩
    rw [mem_blk]
    obtain ⟨e0, e1, e2, e3, e4, e5, e6, e7⟩ := idx_facts ⟨(i 0).val / 832, hlt⟩
    intro a
    match a with
    | ⟨0, _⟩ =>
      show win0_2.index ⟨(i 0).val / 832, hlt⟩ (0 : Fin 2) * 832 ≤ (i 0).val
        ∧ (i 0).val < win0_2.index ⟨(i 0).val / 832, hlt⟩ (0 : Fin 2) * 832 + 832
      rw [e4]; dsimp only; omega
    | ⟨1, _⟩ =>
      show win0_2.index ⟨(i 0).val / 832, hlt⟩ (1 : Fin 2) * 3000 ≤ (i 1).val
        ∧ (i 1).val < win0_2.index ⟨(i 0).val / 832, hlt⟩ (1 : Fin 2) * 3000 + 3000
      rw [e5]; omega)

end Cert.KernelIdeal.Scale
end
-- ==== Proof.KernelResult.lean ====
/-
  The kernel's whole run, read as a value.

  Before the region the host computes the per-channel factor [64, 273] and lays the two operands out flat: the
  signal [64, 273, 3000] as [17472, 3000] and the factor as one column [17472, 1], row b·273 + ch holding batch b,
  channel ch. The region multiplies row by row (the first module on the kernel). After it the host lays the product
  out again as [64, 273, 3000]. Reading the three re-layouts at an index, the result at (b, ch, l) is the signal there
  times the factor of (b, ch): the function `scaled` of the four arguments.
-/
import proofs.«118088_j5626407158062_2_alg».proof.Proof.KernelBlocks
import proofs.«118088_j5626407158062_2_alg».proof.Proof.ChannelSpec
import Idealize.ShloMosaic.Lib.StableHlo.Run

set_option maxRecDepth 16384

noncomputable section

open Idealize.ShloMosaic Idealize.ShloMosaic.TcCoe Idealize.SL.Sem Idealize.ShloMosaic.Tactic
open Idealize.ShloMosaic.Pipeline (Dat)
open Idealize.ShloMosaic.ValueIdx

namespace Cert.KernelIdeal.Scale

open Cert.KernelIdeal Cert.KernelIdeal.Gen Idealize.ShloMosaic.StableHlo
open Cert.ChannelScale (channelScale scaled)

variable (m : (ℓ : Loc nD τ sig) → Buf (Elt Ideal) ℓ) (ρ : Dev nD → PrngReg)

/-- The first staged array is the signal laid out flat. -/
theorem staged_signal (c : Dev nD) :
    V m c main_v22
      = shapeCast S17472x3000 (m ((c : Thread nD τ).loc main_arg0)) shapeCasts_S64x273x3000_S17472x3000 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

set_option maxHeartbeats 2000000 in
/-- The second staged array is the per-channel factor laid out as one column: the host lines before the region compute
    exactly the terms `channelScale` is made of. -/
theorem staged_scale (c : Dev nD) :
    V m c main_v23
      = shapeCast S17472x1
          (channelScale (m ((c : Thread nD τ).loc main_arg1)) (m ((c : Thread nD τ).loc main_arg2)) (m ((c : Thread nD τ).loc main_arg3)))
          shapeCasts_S64x273_S17472x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

/-- After the region the host lays its output array out as [64, 273, 3000]: the result buffer. -/
theorem tail_result (c : Dev nD) :
    Pipeline.afterTail₀ cfgs (dats m) 0 (V0 m) [hostOps1] c main_v25
      = shapeCast S64x273x3000 (rowScale (V m c main_v22) (V m c main_v23)) shapeCasts_S17472x3000_S64x273x3000 := by
  unfold Pipeline.afterTail₀
  show StableHlo.after hostOps1 _ (Proc.devRef .tc main_v25) = _
  after_results
  have hw : Pipeline.withArrays (cfgs 0).spec c (V0 m c) (fun w => (dats m 0 c).arrAt w (cfgs 0).N) (Proc.devRef .tc main_v24)
      = rowScale (V m c main_v22) (V m c main_v23) :=
    (Pipeline.withArrays_arr spec0 launch0.win.arr_inj c _ _ 2).trans (region_result m c)
  rw [hw]
  rfl

/-- Through the three re-layouts ([64,273,3000] to [17472,3000] and back, [64,273] to [17472,1]): row b·273 + ch of the
    flat arrays is batch b, channel ch, so the result at (b, ch, l) is the signal there times the factor of (b, ch). -/
theorem reshaped_apply (x0 : (⟨S64x273x3000, .f32⟩ : BufTy).Contents (Elt Ideal)) (s : (⟨S64x273, .f32⟩ : BufTy).Contents (Elt Ideal))
    (b : Fin 64) (ch : Fin 273) (l : Fin 3000) :
    shapeCast S64x273x3000
        (rowScale (shapeCast S17472x3000 x0 shapeCasts_S64x273x3000_S17472x3000) (shapeCast S17472x1 s shapeCasts_S64x273_S17472x1))
        shapeCasts_S17472x3000_S64x273x3000 (ix3 b ch l)
      = x0 (ix3 b ch l) * s (ix2 b ch) := by
  have hb := b.isLt
  have hch := ch.isLt
  have hr : b.val * 273 + ch.val < 17472 := by omega
  rw [shapeCast_apply _ shapeCasts_S17472x3000_S64x273x3000 (ix3 b ch l) (ix2 (⟨b.val * 273 + ch.val, hr⟩ : Fin 17472) l)
    (by rw [Shape.rowMajor_val_two, Shape.rowMajor_val_three]; rfl)]
  unfold rowScale
  rw [shapeCast_apply x0 shapeCasts_S64x273x3000_S17472x3000 (ix2 (⟨b.val * 273 + ch.val, hr⟩ : Fin 17472) l) (ix3 b ch l)
      (by rw [Shape.rowMajor_val_two, Shape.rowMajor_val_three]; rfl),
    shapeCast_apply s shapeCasts_S64x273_S17472x1 _ (ix2 b ch)
      (by rw [Shape.rowMajor_val_two, Shape.rowMajor_val_two]
          show b.val * 273 + ch.val = (b.val * 273 + ch.val) * 1 + 0
          omega)]

/-- So the result buffer holds `scaled` of the four arguments. -/
theorem result_eq (c : Dev nD) :
    Pipeline.afterTail₀ cfgs (dats m) 0 (V0 m) [hostOps1] c main_v25
      = scaled (m ((c : Thread nD τ).loc main_arg0)) (m ((c : Thread nD τ).loc main_arg1))
          (m ((c : Thread nD τ).loc main_arg2)) (m ((c : Thread nD τ).loc main_arg3)) := by
  rw [tail_result, staged_signal, staged_scale]
  funext i
  obtain ⟨b, ch, l, rfl⟩ : ∃ (b : Fin 64) (ch : Fin 273) (l : Fin 3000), i = ix3 b ch l := ⟨i 0, i 1, i 2, eq_ix3 i⟩
  exact reshaped_apply _ _ b ch l

/-- The kernel's run, read: every weakly fair execution terminates with the result buffer at `scaled` of the
    arguments and the arguments unchanged. -/
theorem run : θ_run defs (onTc (τ := τ) (main (F := Ideal))) ⟨m, fun _ => 0, ρ⟩ fun r => ∀ c : Dev nD,
      r.2.mem ((c : Thread nD τ).loc main_v25)
        = scaled (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v25 (Pipeline.mem_restRefs_of main_v25 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Scale

end
-- ==== Proof.lean ====
/-
  Channel dropout with Monte-Carlo rescaling: the kernel against its reference, on the extended reals.

  Both programs compute, per (batch, channel), a 0/1 mask value k (the channel's distance from a centre exceeds a
  radius) and the mean p of the same mask over a hundred trial centres, by the same host operations on the same
  literals. They differ in how the signal x meets them:

      kernel      x · ( k / (ε + p) )      the factor is computed first, then one multiply per sample, row block by
                                            row block over a flattened [17472, 3000] layout;
      reference   ( x · k ) / (ε + p)      mask first, divide afterwards, in the [64, 273, 3000] layout.

  A quotient by a nonzero extended real is the product with its inverse, so the two differ by associativity of the
  product alone, and ε + p is never zero: ε is a positive literal and p is a sum from zero of a hundred 0/1 values
  over 100. Nothing here needs the inputs to be finite, so the precondition is never opened.

  The modules: the law and the literals; the common result `scaled` and that the reference computes it; the kernel's
  region as a function of its two staged arrays; the kernel's host lines around the region. The three frames are
  the generated ones (the reference's is its generated run with the result dropped), and the idealization rewrote
  nothing, so its claim is `True`.
-/
import proofs.«118088_j5626407158062_2_alg».proof.Defs
import proofs.«118088_j5626407158062_2_alg».proof.Proof.Gen.Kernel
import proofs.«118088_j5626407158062_2_alg».proof.Proof.Gen.Kernel.Frame
import proofs.«118088_j5626407158062_2_alg».proof.Proof.Gen.KernelIdeal
import proofs.«118088_j5626407158062_2_alg».proof.Proof.Gen.KernelIdeal.Frame
import proofs.«118088_j5626407158062_2_alg».proof.Proof.Gen.ReferenceIdeal
import proofs.«118088_j5626407158062_2_alg».proof.Proof.Gen.Pre_finite_inputs
import proofs.«118088_j5626407158062_2_alg».proof.Proof.Gen.ReferenceIdeal.Run
import proofs.«118088_j5626407158062_2_alg».proof.Proof.Gen.ReferenceIdeal.Read
import proofs.«118088_j5626407158062_2_alg».proof.Proof.ScaleLaw
import proofs.«118088_j5626407158062_2_alg».proof.Proof.ChannelSpec
import proofs.«118088_j5626407158062_2_alg».proof.Proof.KernelBlocks
import proofs.«118088_j5626407158062_2_alg».proof.Proof.KernelResult
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is host operations only: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end with their result at `scaled` of those
    arguments: the kernel by its run read as a value, the reference by its generated run and the law. -/
theorem algebraic : Cert.algebraic_KernelIdeal_ReferenceIdeal := by
  intro m ρ m' ρ' _ hagree
  refine ⟨fun c => Cert.ChannelScale.scaled
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Scale.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ChannelScale.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
